-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S50000x1 : Shape := ⟨2, ![50000, 1]⟩
abbrev S128x128 : Shape := ⟨2, ![128, 128]⟩
abbrev S128 : Shape := ⟨1, ![128]⟩
abbrev S2x500000 : Shape := ⟨2, ![2, 500000]⟩
abbrev S500000 : Shape := ⟨1, ![500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S500000x128 .f32) (main_arg1 : FVec F S50000x1 .f32) (main_arg2 : FVec F S128x128 .f32) (main_arg3 : FVec F S128 .f32) (main_arg4 : IVec S2x500000 32) (main_arg5 : IVec S500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S500000x128 : Shape := ⟨2, ![500000, 128]⟩
abbrev S50000x1 : Shape := ⟨2, ![50000, 1]⟩
abbrev S128x128 : Shape := ⟨2, ![128, 128]⟩
abbrev S128 : Shape := ⟨1, ![128]⟩
abbrev S2x500000 : Shape := ⟨2, ![2, 500000]⟩
abbrev S500000 : Shape := ⟨1, ![500000]⟩
abbrev S1x500000 : Shape := ⟨2, ![1, 500000]⟩
abbrev S_ : Shape := ⟨0, ![]⟩
abbrev S50000x128 : Shape := ⟨2, ![50000, 128]⟩
abbrev S500000x1 : Shape := ⟨2, ![500000, 1]⟩
abbrev S1x128 : Shape := ⟨2, ![1, 128]⟩
abbrev S10000x128 : Shape := ⟨2, ![10000, 128]⟩

abbrev nBuf : Space → Nat
  | .hbm => 40
  | .vmem => 6
  | .smem => 0
  | _ => 0

abbrev bufTy : (tb : Table) → Fin (tcTables nBuf tb) → BufTy
  | .hbm, ⟨0, _⟩ => ⟨S500000x128, .f32⟩
  | .hbm, ⟨1, _⟩ => ⟨S50000x1, .f32⟩
  | .hbm, ⟨2, _⟩ => ⟨S128x128, .f32⟩
  | .hbm, ⟨3, _⟩ => ⟨S128, .f32⟩
  | .hbm, ⟨4, _⟩ => ⟨S2x500000, .i32⟩
  | .hbm, ⟨5, _⟩ => ⟨S500000, .i32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .f32⟩
  | .hbm, ⟨11, _⟩ => ⟨S500000x128, .f32⟩
  | .hbm, ⟨12, _⟩ => ⟨S500000x128, .f32⟩
  | .hbm, ⟨13, _⟩ => ⟨S_, .f32⟩
  | .hbm, ⟨14, _⟩ => ⟨S50000x128, .f32⟩
  | .hbm, ⟨15, _⟩ => ⟨S500000x1, .i32⟩
  | .hbm, ⟨16, _⟩ => ⟨S50000x128, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .f32⟩
  | .hbm, ⟨35, _⟩ => ⟨S500000x128, .f32⟩
  | .hbm, ⟨36, _⟩ => ⟨S500000x128, .bf16⟩
  | .hbm, ⟨37, _⟩ => ⟨S128x128, .bf16⟩
  | .hbm, ⟨38, _⟩ => ⟨S1x128, .f32⟩
  | .hbm, ⟨39, _⟩ => ⟨S500000x128, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000x128 : S_.BroadcastsInDim S500000x128 (![] : Fin 0 → Fin S500000x128.rank)
  bcast_S_S50000x128 : S_.BroadcastsInDim S50000x128 (![] : Fin 0 → Fin S50000x128.rank)
  bcast_S500000_S500000x1_0 : S500000.BroadcastsInDim S500000x1 (![0] : Fin 1 → Fin S500000x1.rank)
  bcast_S_S500000 : S_.BroadcastsInDim S500000 (![] : Fin 0 → Fin S500000.rank)
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S50000x128_S500000x1_S500000x128_1_0_0_1_wf : ScatterDims.WF S50000x128 S500000x1 S500000x128 [1] [0] [0] 1
  gather_S50000x128_S500000x1_S500000x128_1_0_n_n_0_1_1128_wf : GatherDims.WF S50000x128 S500000x1 S500000x128 [1] [0] [] [0] [] 1 ![1, 128]
  gather_S500000x128_S500000x1_S500000x128_1_0_n_n_0_1_1128_wf : GatherDims.WF S500000x128 S500000x1 S500000x128 [1] [0] [] [0] [] 1 ![1, 128]
  dot_S10000x128_S128x128_S10000x128_1_1_0_0_n_n_wf : DotDims.WF S10000x128 S128x128 S10000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .bf16 = 32 ∨ (Rect.block (s := S500000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)

variable [Facts₀]

def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

abbrev win0_0 : Pipeline.Window sig grid0 :=
  Pipeline.Window.ofSpec (Memref.whole main_v23) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x128 : Shape := ⟨2, ![500000, 128]⟩
abbrev S50000x1 : Shape := ⟨2, ![50000, 1]⟩
abbrev S128x128 : Shape := ⟨2, ![128, 128]⟩
abbrev S128 : Shape := ⟨1, ![128]⟩
abbrev S2x500000 : Shape := ⟨2, ![2, 500000]⟩
abbrev S500000 : Shape := ⟨1, ![500000]⟩
abbrev S1x500000 : Shape := ⟨2, ![1, 500000]⟩
abbrev S_ : Shape := ⟨0, ![]⟩
abbrev S50000x128 : Shape := ⟨2, ![50000, 128]⟩
abbrev S500000x1 : Shape := ⟨2, ![500000, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S50000x1, .f32⟩
  | .hbm, ⟨2, _⟩ => ⟨S128x128, .f32⟩
  | .hbm, ⟨3, _⟩ => ⟨S128, .f32⟩
  | .hbm, ⟨4, _⟩ => ⟨S2x500000, .i32⟩
  | .hbm, ⟨5, _⟩ => ⟨S500000, .i32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .f32⟩
  | .hbm, ⟨11, _⟩ => ⟨S500000x128, .f32⟩
  | .hbm, ⟨12, _⟩ => ⟨S500000x128, .f32⟩
  | .hbm, ⟨13, _⟩ => ⟨S_, .f32⟩
  | .hbm, ⟨14, _⟩ => ⟨S50000x128, .f32⟩
  | .hbm, ⟨15, _⟩ => ⟨S500000x1, .i32⟩
  | .hbm, ⟨16, _⟩ => ⟨S50000x128, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .f32⟩
  | .hbm, ⟨35, _⟩ => ⟨S500000x128, .f32⟩
  | .hbm, ⟨36, _⟩ => ⟨S128x128, .f32⟩
  | .hbm, ⟨37, _⟩ => ⟨S500000x128, .f32⟩
  | .hbm, ⟨38, _⟩ => ⟨S1x128, .f32⟩
  | .hbm, ⟨39, _⟩ => ⟨S500000x128, .f32⟩
  | .hbm, ⟨40, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000x128 : S_.BroadcastsInDim S500000x128 (![] : Fin 0 → Fin S500000x128.rank)
  bcast_S_S50000x128 : S_.BroadcastsInDim S50000x128 (![] : Fin 0 → Fin S50000x128.rank)
  bcast_S500000_S500000x1_0 : S500000.BroadcastsInDim S500000x1 (![0] : Fin 1 → Fin S500000x1.rank)
  bcast_S_S500000 : S_.BroadcastsInDim S500000 (![] : Fin 0 → Fin S500000.rank)
  transposes_S128x128_S128x128_1_0 : S128x128.Transposes [1, 0] S128x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  scatter_S50000x128_S500000x1_S500000x128_1_0_0_1_wf : ScatterDims.WF S50000x128 S500000x1 S500000x128 [1] [0] [0] 1
  gather_S50000x128_S500000x1_S500000x128_1_0_n_n_0_1_1128_wf : GatherDims.WF S50000x128 S500000x1 S500000x128 [1] [0] [] [0] [] 1 ![1, 128]
  gather_S500000x128_S500000x1_S500000x128_1_0_n_n_0_1_1128_wf : GatherDims.WF S500000x128 S500000x1 S500000x128 [1] [0] [] [0] [] 1 ![1, 128]
  dot_S500000x128_S128x128_S500000x128_1_0_0_1_n_n_wf : DotDims.WF S500000x128 S128x128 S500000x128 [1] [0] [0] [1] [] []

variable [Facts₀]

def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.EdgeLinear.lean ====
/-
  The function both programs compute, stated once over plain arrays of extended reals.

  For an array `d` of per-edge feature rows (500000 rows of 128 entries), a square weight matrix `w` (128 × 128) and a
  bias vector `b` (128 entries), the linear layer applied row by row is

      out[e, j] = Σ_k d[e, k] · w[j, k] + b[j],

  that is `d · wᵀ + b`: the contraction runs over the SECOND axis of both `d` and `w`.  The array `d` itself (the
  difference of two gathered message arrays) is left abstract here: both programs build it by the same host operations, and
  nothing about its contents is needed to compare what they do with it.
-/
import Idealize.ShloMosaic.PureOps.Ideal
import Idealize.ShloMosaic.Lib.ValueIdx

noncomputable section

namespace Cert.EdgeLinear

open Idealize.ShloMosaic Idealize.ShloMosaic.ValueIdx

/-- Per-edge rows: 500000 × 128. -/
abbrev SE : Shape := ⟨2, ![500000, 128]⟩
/-- The weight matrix: 128 × 128. -/
abbrev SW : Shape := ⟨2, ![128, 128]⟩
/-- The bias: 128 entries. -/
abbrev SB : Shape := ⟨1, ![128]⟩

/-- Entry `(e, j)` of `d · wᵀ + b`. -/
def entry (d : SE.Idx → EReal) (w : SW.Idx → EReal) (b : SB.Idx → EReal) (e : Fin 500000) (j : Fin 128) : EReal :=
  (∑ k : Fin 128, d (ix2 e k) * w (ix2 j k)) + b (ix1 j)

/-- The whole array `d · wᵀ + b`, index by index. -/
def linear (d : SE.Idx → EReal) (w : SW.Idx → EReal) (b : SB.Idx → EReal) : SE.Idx → EReal :=
  fun i => entry d w b (i 0) (i 1)

theorem linear_apply (d : SE.Idx → EReal) (w : SW.Idx → EReal) (b : SB.Idx → EReal) (e : Fin 500000) (j : Fin 128) :
    linear d w b (ix2 e j) = (∑ k : Fin 128, d (ix2 e k) * w (ix2 j k)) + b (ix1 j) := rfl

end Cert.EdgeLinear

end
-- ==== Proof.RefLinear.lean ====
/-
  The reference program's result, read at an index, is the linear layer `d · wᵀ + b` of its own difference array.

  The reference transposes the weights and contracts the difference array's second axis against the transposed
  matrix's FIRST axis; entry `(k, j)` of the transpose is entry `(j, k)` of the weights, so each product in its sum is
  `d[e, k] · w[j, k]`.  The bias reaches entry `(e, j)` through two broadcasts that keep only the column `j`.
-/
import proofs.«103712_j9801115369511_2_alg».proof.Proof.Gen.ReferenceIdeal.Read
import proofs.«103712_j9801115369511_2_alg».proof.Proof.EdgeLinear

noncomputable section

namespace Cert.ReferenceIdeal.RefValue

open Cert.ReferenceIdeal Cert.ReferenceIdeal.Read Idealize.ShloMosaic Idealize.ShloMosaic.ValueIdx Cert.EdgeLinear

/-- The left factor of the `k`-th product of entry `i` is the difference array at row `i 0`, column `k`. -/
theorem lhs_index (i : S500000x128.Idx) (k : Fin 128) : lidx_main_v24 i k = ix2 (i 0) k :=
  funext fun a => Fin.ext (by match a with | ⟨0, _⟩ => rfl | ⟨1, _⟩ => rfl)

/-- The right factor, read through the transpose, is the weight at row `i 1`, column `k`. -/
theorem rhs_index (i : S500000x128.Idx) (k : Fin 128) : idx_main_v23 (ridx_main_v24 i k) = ix2 (i 1) k :=
  funext fun a => Fin.ext (by match a with | ⟨0, _⟩ => rfl | ⟨1, _⟩ => rfl)

/-- The bias entry that the two broadcasts bring to entry `i` is the one of column `i 1`. -/
theorem bias_index (i : S500000x128.Idx) : idx_main_v25 (idx_main_v26 i) = ix1 (i 1) :=
  funext fun a => Fin.ext (by match a with | ⟨0, _⟩ => rfl)

/-- The reference's result array is `d · wᵀ + b` with `d` its difference array (`val_main_v22`), `w` the weights and
    `b` the bias. -/
theorem result_eq (x0 : (⟨S500000x128, .f32⟩ : BufTy).Contents (Elt Ideal)) (x2 : (⟨S128x128, .f32⟩ : BufTy).Contents (Elt Ideal))
    (x3 : (⟨S128, .f32⟩ : BufTy).Contents (Elt Ideal)) (x4 : (⟨S2x500000, .i32⟩ : BufTy).Contents (Elt Ideal))
    (x5 : (⟨S500000, .i32⟩ : BufTy).Contents (Elt Ideal)) :
    val_main_v27 (F := Ideal) x0 x2 x3 x4 x5 = linear (val_main_v22 (F := Ideal) x0 x4 x5) x2 x3 := by
  funext i
  rw [val_main_v27_apply, val_main_v24_apply, val_main_v26_apply, val_main_v25_apply, bias_index]
  simp only [val_main_v23_apply, lhs_index, rhs_index]
  rfl

end Cert.ReferenceIdeal.RefValue

end
-- ==== Proof.BodyLinear.lean ====
/-
  What one run of the kernel body stores, read at an index.

  The body loads a block `x0` of 10000 difference rows, the whole weight matrix `x1` and the bias as a one-row
  matrix `x2`, multiplies `x0` by `x1` contracting the SECOND axis of both into a zero accumulator, and adds the bias
  row to every row of the product.  At the exact values the stored entry `(p, q)` is therefore

      Σ_k x0[p, k] · x1[q, k] + x2[0, q].
-/
import proofs.«103712_j9801115369511_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- Which entries of the two blocks the `k`-th product of output entry `i` reads: the left block's row is the
    output row and its column the contraction index; the right block's ROW is the output column and its column the
    contraction index (both operands are contracted along their second axis). -/
theorem left_row (i : S10000x128.Idx) (k : (dot_S10000x128_S128x128_S10000x128_1_1_0_0_n_n).contr.Idx) :
    ((dot_S10000x128_S128x128_S10000x128_1_1_0_0_n_n).lhsIdx i k 0).val = (i 0).val := by
  unfold DotDims.lhsIdx
  rw [dif_neg (show ¬(0 : Fin S10000x128.rank) ∈ (dot_S10000x128_S128x128_S10000x128_1_1_0_0_n_n).lhsBatch by decide),
    dif_pos (show (0 : Fin S10000x128.rank) ∈ (dot_S10000x128_S128x128_S10000x128_1_1_0_0_n_n).lhsNonContracting by decide)]
  rfl
theorem left_col (i : S10000x128.Idx) (k : (dot_S10000x128_S128x128_S10000x128_1_1_0_0_n_n).contr.Idx) :
    ((dot_S10000x128_S128x128_S10000x128_1_1_0_0_n_n).lhsIdx i k 1).val = (k ⟨0, by decide⟩).val :=
  (dot_S10000x128_S128x128_S10000x128_1_1_0_0_n_n).lhsIdx_val_of_single rfl i k
theorem right_row (i : S10000x128.Idx) (k : (dot_S10000x128_S128x128_S10000x128_1_1_0_0_n_n).contr.Idx) :
    ((dot_S10000x128_S128x128_S10000x128_1_1_0_0_n_n).rhsIdx i k 0).val = (i 1).val := by
  unfold DotDims.rhsIdx
  rw [dif_neg (show ¬(0 : Fin S128x128.rank) ∈ (dot_S10000x128_S128x128_S10000x128_1_1_0_0_n_n).rhsBatch by decide),
    dif_pos (show (0 : Fin S128x128.rank) ∈ (dot_S10000x128_S128x128_S10000x128_1_1_0_0_n_n).rhsNonContracting by decide)]
  rfl
theorem right_col (i : S10000x128.Idx) (k : (dot_S10000x128_S128x128_S10000x128_1_1_0_0_n_n).contr.Idx) :
    ((dot_S10000x128_S128x128_S10000x128_1_1_0_0_n_n).rhsIdx i k 1).val = (k ⟨0, by decide⟩).val :=
  (dot_S10000x128_S128x128_S10000x128_1_1_0_0_n_n).rhsIdx_val_of_single rfl i k

/-- The block product at `(p, q)`: the sum over the 128 columns of row `p` of the left block times row `q` of the
    right one. -/
theorem product_apply (l : FVec Ideal S10000x128 .bf16) (r : FVec Ideal S128x128 .bf16) (p : Fin 10000) (q : Fin 128) :
    matmul dot_S10000x128_S128x128_S10000x128_1_1_0_0_n_n none l r (constant S10000x128 .f32 0x00000000#32) (ix2 p q)
      = ∑ k : Fin 128, l (ix2 p k) * r (ix2 q k) := by
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 p q) ((contrEquiv1 dot_S10000x128_S128x128_S10000x128_1_1_0_0_n_n 128 rfl rfl).symm k) = ix2 p k :=
    funext fun a => Fin.ext (by
      match a with
      | ⟨0, _⟩ => exact left_row _ _
      | ⟨1, _⟩ => exact (left_col _ _).trans hk)
  have er : dot_S10000x128_S128x128_S10000x128_1_1_0_0_n_n.rhsIdx (ix2 p q) ((contrEquiv1 dot_S10000x128_S128x128_S10000x128_1_1_0_0_n_n 128 rfl rfl).symm k) = ix2 q k :=
    funext fun a => Fin.ext (by
      match a with
      | ⟨0, _⟩ => exact right_row _ _
      | ⟨1, _⟩ => exact (right_col _ _).trans hk)
  rw [el, er]

/-- The bias row spread over the block: entry `(p, q)` is the row's entry `q`. -/
theorem bias_rows_apply (x2 : FVec Ideal S1x128 .f32) (p : Fin 10000) (q : Fin 128) :
    broadcastTo S10000x128 x2 broadcasts_S1x128_S10000x128 (ix2 p q) = x2 (ix2 0 q) :=
  broadcastTo_apply x2 broadcasts_S1x128_S10000x128 (ix2 p q) (ix2 0 q) (fun a => by
    match a with
    | ⟨0, _⟩ => rfl
    | ⟨1, _⟩ => rfl)

/-- The stored block at `(p, q)`. -/
theorem stored_apply (x0 : Vec Ideal S10000x128 .bf16) (x1 : Vec Ideal S128x128 .bf16) (x2 : Vec Ideal S1x128 .f32) (p : Fin 10000) (q : Fin 128) :
    k0_pay1 (F := Ideal) x0 x1 x2 (ix2 p q) = (∑ k : Fin 128, x0 (ix2 p k) * x1 (ix2 q k)) + x2 (ix2 0 q) := by
  unfold k0_pay1
  rw [shapeCast_self, shapeCast_self, shapeCast_self, addf_apply, product_apply, bias_rows_apply]

end Cert.KernelIdeal.Body

end
-- ==== Proof.BlocksToArray.lean ====
/-
  From the blocks the grid points write back to the whole result array.

  The grid has 50 points.  Point `t` reads rows `10000·t … 10000·t + 9999` of the difference array, the whole weight
  matrix and the whole one-row bias matrix, and writes back rows `10000·t … 10000·t + 9999` of the result.  What it
  writes is the body's stored block, which at `(p, q)` is `Σ_k x0[p, k] · x1[q, k] + x2[0, q]`; read through the blocks
  this is entry `(10000·t + p, q)` of `d · wᵀ + b` over the three arrays as the region finds them.  The 50 row blocks
  tile the 500000 rows (row `r` lies in block `r / 10000`), so after the run the result array is `d · wᵀ + b` everywhere.
-/
import proofs.«103712_j9801115369511_2_alg».proof.Proof.Gen.KernelIdeal.Value
import proofs.«103712_j9801115369511_2_alg».proof.Proof.BodyLinear
import proofs.«103712_j9801115369511_2_alg».proof.Proof.EdgeLinear

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.EdgeLinear

variable (m : (ℓ : Loc nD τ sig) → Buf (Elt Ideal) ℓ) (ρ : Dev nD → PrngReg)

theorem origin : (![0, 0] : Fin 2 → Nat) = fun _ => 0 := funext fun a => by fin_cases a <;> rfl

/-- The three arrays the region reads, as it finds them: the difference rows, the weights, the one-row bias matrix. -/
abbrev diffArr (c : Dev nD) : SE.Idx → EReal := V m c main_v23
abbrev weightArr (c : Dev nD) : SW.Idx → EReal := V m c main_v24
abbrev biasRow (c : Dev nD) : S1x128.Idx → EReal := V m c main_v25

/-- The result: `d · wᵀ + b` of those arrays, the bias read off its single row. -/
def result (c : Dev nD) : SE.Idx → EReal :=
  linear (diffArr m c) (weightArr m c) (fun i => biasRow m c (ix2 0 (i 0)))

/-- Where the blocks sit: the difference and result windows move down one block of rows per grid point, the weight and
    bias windows stay at the origin (decided over the 50 points). -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p`, column `k` of the difference block at point `t` is row `10000·t + p` of the difference array. -/
theorem diff_block (c : Dev nD) (t : Fin cfg0.N) (p : Fin 10000) (k : Fin 128) (e : Fin 500000) (he : e.val = 10000 * t.val + p.val) :
    (iblk m c 0 t : Vec Ideal S10000x128 .bf16) (ix2 p k) = diffArr m c (ix2 e k) := by
  obtain ⟨h0, h1, -⟩ := block_positions t
  show V m c main_v23 (((cfg0.win 0).blk t).view.emb (ix2 p k)) = V m c main_v23 (ix2 e k)
  refine congrArg (V m c main_v23) (funext fun a => Fin.ext ?_)
  match a with
  | ⟨0, _⟩ => show win0_0.index t (0 : Fin 2) * 10000 + 1 * p.val = e.val; omega
  | ⟨1, _⟩ => show win0_0.index t (1 : Fin 2) * 128 + 1 * k.val = k.val; omega

/-- The weight block is the weight array at every point. -/
theorem weight_block (c : Dev nD) (t : Fin cfg0.N) (q k : Fin 128) :
    (iblk m c 1 t : Vec Ideal S128x128 .bf16) (ix2 q k) = weightArr m c (ix2 q k) := by
  obtain ⟨-, -, h0, h1, -⟩ := block_positions t
  show V m c main_v24 (((cfg0.win 1).blk t).view.emb (ix2 q k)) = V m c main_v24 (ix2 q k)
  refine congrArg (V m c main_v24) (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

/-- The bias block is the one-row bias matrix at every point. -/
theorem bias_block (c : Dev nD) (t : Fin cfg0.N) (q : Fin 128) :
    (iblk m c 2 t : Vec Ideal S1x128 .f32) (ix2 0 q) = biasRow m c (ix2 0 q) := by
  obtain ⟨-, -, -, -, h0, h1, -⟩ := block_positions t
  show V m c main_v25 (((cfg0.win 2).blk t).view.emb (ix2 0 q)) = V m c main_v25 (ix2 0 q)
  refine congrArg (V m c main_v25) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- What point `t` writes back is its block of rows of `d · wᵀ + b`. -/
theorem written_block (c : Dev nD) (t : Fin cfg0.N) :
    (dats m 0 c).flushed 3 t = ((cfg0.win 3).blk t).view.read (Elt Ideal) (result m c) := by
  rw [flushed3]
  unfold out0_3
  rw [View.canon_unit_zero origin]
  simp only [View.ld_unit_zero (S := S10000x128) origin, View.ld_unit_zero (S := S128x128) origin, View.ld_unit_zero (S := S1x128) origin]
  obtain ⟨-, -, -, -, -, -, h0, h1⟩ := block_positions t
  funext j
  obtain ⟨p, q, rfl⟩ : ∃ (p : Fin 10000) (q : Fin 128), j = ix2 p q := ⟨j 0, j 1, eq_ix2 j⟩
  have ht : t.val < 50 := lt_of_lt_of_eq t.isLt N_0
  have hp := p.isLt
  let e : Fin 500000 := ⟨10000 * t.val + p.val, by omega⟩
  have hemb : ((cfg0.win 3).blk t).view.emb (ix2 p q) = ix2 e q := funext fun a => Fin.ext (by
    match a with
    | ⟨0, _⟩ => show win0_3.index t (0 : Fin 2) * 10000 + 1 * p.val = 10000 * t.val + p.val; omega
    | ⟨1, _⟩ => show win0_3.index t (1 : Fin 2) * 128 + 1 * q.val = q.val; omega)
  show k0_pay1 (F := Ideal) (iblk m c 0 t) (iblk m c 1 t) (iblk m c 2 t) (ix2 p q) = result m c (((cfg0.win 3).blk t).view.emb (ix2 p q))
  rw [hemb]
  refine (Body.stored_apply (iblk m c 0 t) (iblk m c 1 t) (iblk m c 2 t) p q).trans ?_
  show _ = (∑ k : Fin 128, diffArr m c (ix2 e k) * weightArr m c (ix2 q k)) + biasRow m c (ix2 0 q)
  rw [bias_block m c t q]
  refine congrArg (· + biasRow m c (ix2 0 q)) (Finset.sum_congr rfl fun k _ => ?_)
  rw [diff_block m c t p k e rfl, weight_block m c t q k]

/-- An index of the result array lies in point `t`'s block iff each coordinate lies in the block's range. -/
theorem mem_block (t : Fin cfg0.N) (i : S500000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v26).slice (win0_3.rect t)).set ↔ _
  rw [View.set_slice_whole, Rect.mem_set_unit]
  exact Iff.rfl

/-- The row blocks tile the array: row `r` is in the block of point `r / 10000`. -/
theorem rows_covered (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  have hN : cfg0.N = 50 := N_0
  let t : Fin cfg0.N := ⟨(i 0).val / 10000, by rw [hN]; omega⟩
  obtain ⟨-, -, -, -, -, -, h0, h1⟩ := block_positions t
  have ht : t.val = (i 0).val / 10000 := rfl
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After the run the result array is `d · wᵀ + b` of the arrays the region found. -/
theorem final_array (c : Dev nD) : (dats m 0 c).arrAt 3 cfg0.N = result m c :=
  (dats m 0 c).arrAt_eq_of_cover 3 (result m c) (fun t _ => written_block m c t) rows_covered

/-- The kernel's run, read: the result array at `d · wᵀ + b`, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_array m c), (h c).2⟩) (run_blocks m ρ)

end Cert.KernelIdeal.Whole

end
-- ==== Proof.RegionArrays.lean ====
/-
  What the region finds in the three arrays it reads, as functions of the program's arguments.

  Before the region the kernel program computes, on the host:
    * the messages `max(edge_feats, 0)`;
    * their sum per destination node (a scatter-add of the message rows onto a zero array of 50000 node rows, indexed
      by the second row of `edge_index`);
    * for each edge the node row of its source (first row of `edge_index`, a negative index wrapped by adding 50000)
      minus the message row of its reverse edge (`rev_index`, a negative index wrapped by adding 500000);
  and rounds this difference, and the weights, to a narrower float format — which at the exact values changes nothing —
  and reshapes the bias vector into a one-row matrix.  So the region finds the difference rows `diffRows`, the weights
  themselves, and the bias as a single row.  With these, the kernel's result array `d · wᵀ + b` is a function of the
  arguments alone.
-/
import proofs.«103712_j9801115369511_2_alg».proof.Proof.BlocksToArray
import Idealize.ShloMosaic.Lib.StableHlo.Run

noncomputable section

namespace Cert.KernelIdeal.Found

open Cert.KernelIdeal Cert.KernelIdeal.Gen Idealize.ShloMosaic Idealize.ShloMosaic.TcCoe Idealize.SL.Sem Idealize.ShloMosaic.StableHlo
open Idealize.ShloMosaic.ValueIdx Cert.EdgeLinear

variable (m : (ℓ : Loc nD τ sig) → Buf (Elt Ideal) ℓ)

/-- The difference rows: gathered node sums minus gathered reverse-edge messages, as the host operations build them from
    the edge features `x0`, the edge endpoints `x4` and the reverse-edge indices `x5`. -/
def diffRows (x0 : FVec Ideal S500000x128 .f32) (x4 : IVec S2x500000 32) (x5 : IVec S500000 32) : FVec Ideal S500000x128 .f32 :=
  (subf (F := Ideal) (Host.gather gather_S50000x128_S500000x1_S500000x128_1_0_n_n_0_1_1128 (Host.scatterAdd scatter_S50000x128_S500000x1_S500000x128_1_0_0_1 (broadcastInDim S50000x128 ![] bcast_S_S50000x128 (constant S_ .f32 0x00000000#32)) (broadcastInDim S500000x1 ![0] bcast_S500000_S500000x1_0 (shapeCast _ (extractStridedSlice S1x500000 ![1, 0] (x4) slices_S2x500000_S1x500000_1_0) shapeCasts_S1x500000_S500000)) (maximumf (x0) (broadcastInDim S500000x128 ![] bcast_S_S500000x128 (constant S_ .f32 0x00000000#32)))) (broadcastInDim S500000x1 ![0] bcast_S500000_S500000x1_0 (select (cmpi .slt (shapeCast _ (extractStridedSlice S1x500000 ![0, 0] (x4) slices_S2x500000_S1x500000_0_0) shapeCasts_S1x500000_S500000) (broadcastInDim S500000 ![] bcast_S_S500000 (constantI S_ 32 0#32))) (addi (shapeCast _ (extractStridedSlice S1x500000 ![0, 0] (x4) slices_S2x500000_S1x500000_0_0) shapeCasts_S1x500000_S500000) (broadcastInDim S500000 ![] bcast_S_S500000 (constantI S_ 32 50000#32))) (shapeCast _ (extractStridedSlice S1x500000 ![0, 0] (x4) slices_S2x500000_S1x500000_0_0) shapeCasts_S1x500000_S500000)))) (Host.gather gather_S500000x128_S500000x1_S500000x128_1_0_n_n_0_1_1128 (maximumf (x0) (broadcastInDim S500000x128 ![] bcast_S_S500000x128 (constant S_ .f32 0x00000000#32))) (broadcastInDim S500000x1 ![0] bcast_S500000_S500000x1_0 (select (cmpi .slt (x5) (broadcastInDim S500000 ![] bcast_S_S500000 (constantI S_ 32 0#32))) (addi (x5) (broadcastInDim S500000 ![] bcast_S_S500000 (constantI S_ 32 500000#32))) (x5)))))

/-- Narrowing the float format is the identity on exact values. -/
theorem narrow_id {s : Shape} (x : FVec Ideal s .f32) (h) : (truncf .bf16 x h : FVec Ideal s .bf16) = x := rfl

set_option maxHeartbeats 400000 in
/-- The region finds the difference rows in its first array. -/
theorem diff_found (c : Dev nD) : (V m c main_v23 : S500000x128.Idx → EReal)
    = diffRows (m ((c : Thread nD τ).loc main_arg0)) (m ((c : Thread nD τ).loc main_arg4)) (m ((c : Thread nD τ).loc main_arg5)) := by
  dsimp only [V]
  simp only [hostOps0, hostOps0_1, hostOps0_2, List.flatten_cons, List.flatten_nil, List.append_nil, List.cons_append, List.nil_append]
  after_results_simp
  refine (narrow_id _ _).trans ?_
  unfold diffRows
  refine congrArg₂ (fun a b => subf (F := Ideal) a b) ?_ ?_
  · refine congrArg₂ (fun a b => Host.gather gather_S50000x128_S500000x1_S500000x128_1_0_n_n_0_1_1128 a b) ?_ ?_
    · refine congrArg₂ (fun a b => Host.scatterAdd (F := Ideal) scatter_S50000x128_S500000x1_S500000x128_1_0_0_1 (broadcastInDim S50000x128 ![] bcast_S_S50000x128 (constant S_ .f32 0x00000000#32)) a b) ?_ ?_
      · rfl
      · rfl
    · rfl
  · refine congrArg₂ (fun a b => Host.gather gather_S500000x128_S500000x1_S500000x128_1_0_n_n_0_1_1128 a b) ?_ ?_
    · rfl
    · rfl

/-- The region finds the weights themselves in its second array. -/
theorem weights_found (c : Dev nD) : (V m c main_v24 : S128x128.Idx → EReal) = m ((c : Thread nD τ).loc main_arg2) := by
  dsimp only [V]
  simp only [hostOps0, hostOps0_1, hostOps0_2, List.flatten_cons, List.flatten_nil, List.append_nil, List.cons_append, List.nil_append]
  after_results
  rfl

/-- The region finds the bias vector, reshaped to one row, in its third array. -/
theorem bias_found (c : Dev nD) : (V m c main_v25 : S1x128.Idx → EReal)
    = shapeCast S1x128 (m ((c : Thread nD τ).loc main_arg3)) shapeCasts_S128_S1x128 := by
  dsimp only [V]
  simp only [hostOps0, hostOps0_1, hostOps0_2, List.flatten_cons, List.flatten_nil, List.append_nil, List.cons_append, List.nil_append]
  after_results
  rfl

/-- Entry `j` of the single row of the reshaped bias is entry `j` of the bias vector. -/
theorem bias_row (b : FVec Ideal S128 .f32) :
    (fun i : SB.Idx => shapeCast S1x128 b shapeCasts_S128_S1x128 (ix2 0 (i 0))) = b := by
  funext i
  refine shapeCast_apply b shapeCasts_S128_S1x128 (ix2 0 (i 0)) i ?_
  rewrite [Shape.rowMajor_val_two, Shape.rowMajor_val_one]
  show (i 0).val = 0 * 128 + (i 0).val
  omega

/-- The kernel's result array as a function of the arguments: `d · wᵀ + b` with `d` the difference rows. -/
theorem result_eq (c : Dev nD) : Whole.result m c
    = linear (diffRows (m ((c : Thread nD τ).loc main_arg0)) (m ((c : Thread nD τ).loc main_arg4)) (m ((c : Thread nD τ).loc main_arg5)))
        (m ((c : Thread nD τ).loc main_arg2)) (m ((c : Thread nD τ).loc main_arg3)) := by
  show linear (V m c main_v23) (V m c main_v24) (fun i => V m c main_v25 (ix2 0 (i 0))) = _
  rw [diff_found m c, weights_found m c, bias_found m c, bias_row]

end Cert.KernelIdeal.Found

end
-- ==== Proof.SameDifference.lean ====
/-
  Both programs build the same difference rows.

  Up to the subtraction the two programs' host operations are the same list — the rectified edge features, their
  scatter-sum per destination node, the two gathers with negative indices wrapped, the difference — each stated over
  its own program's copy of the shapes and dimension records, which carry the same numbers.  So the kernel program's
  difference rows and the reference's are one function of the arguments.
-/
import proofs.«103712_j9801115369511_2_alg».proof.Proof.RegionArrays
import proofs.«103712_j9801115369511_2_alg».proof.Proof.Gen.ReferenceIdeal.Read

noncomputable section

namespace Cert.SameDifference

open Idealize.ShloMosaic

set_option maxHeartbeats 200000 in
theorem diffRows_eq (x0 : FVec Ideal Cert.KernelIdeal.S500000x128 .f32) (x4 : IVec Cert.KernelIdeal.S2x500000 32) (x5 : IVec Cert.KernelIdeal.S500000 32) :
    Cert.KernelIdeal.Found.diffRows x0 x4 x5 = Cert.ReferenceIdeal.Read.val_main_v22 (F := Ideal) x0 x4 x5 := rfl

end Cert.SameDifference

end
-- ==== Proof.lean ====
/-
  The five claims for the message-passing layer: the kernel program (a host prefix that builds the per-edge difference
  rows, then one pipelined linear layer over 50 blocks of 10000 rows), its reading at exact values, and the plain
  reference.

  The mathematics.  Both programs compute, for every edge `e` and output feature `j`,

      out[e, j] = Σ_k d[e, k] · w[j, k] + b[j],         d = (node sums gathered by source) − (messages gathered by reverse edge).

  The difference rows `d` are built by the same host operations in both programs (`SameDifference`).  The kernel
  contracts a block of `d` with the weights along the second axis of both and adds the bias row (`BodyLinear`); its 50
  row blocks tile the result (`BlocksToArray`), and the arrays it reads are `d`, the weights and the bias themselves,
  the narrowing of the float format being the identity at exact values (`RegionArrays`).  The reference transposes the
  weights and contracts `d`'s second axis with the transpose's first, which is the same sum term by term
  (`RefLinear`).  No law beyond re-indexing is used, so the finiteness of the inputs is never opened.

  The three frames are the generated ones (the reference's is its generated run with the result dropped); nothing was
  rewritten between the kernel and its reading at exact values, so that claim is `True`.
-/
import proofs.«103712_j9801115369511_2_alg».proof.Defs
import proofs.«103712_j9801115369511_2_alg».proof.Proof.Gen.Kernel
import proofs.«103712_j9801115369511_2_alg».proof.Proof.Gen.Kernel.Skeleton
import proofs.«103712_j9801115369511_2_alg».proof.Proof.Gen.Kernel.Launch
import proofs.«103712_j9801115369511_2_alg».proof.Proof.Gen.Kernel.Points
import proofs.«103712_j9801115369511_2_alg».proof.Proof.Gen.Kernel.Frame
import proofs.«103712_j9801115369511_2_alg».proof.Proof.Gen.KernelIdeal
import proofs.«103712_j9801115369511_2_alg».proof.Proof.Gen.KernelIdeal.Skeleton
import proofs.«103712_j9801115369511_2_alg».proof.Proof.Gen.KernelIdeal.Launch
import proofs.«103712_j9801115369511_2_alg».proof.Proof.Gen.KernelIdeal.Points
import proofs.«103712_j9801115369511_2_alg».proof.Proof.Gen.KernelIdeal.Frame
import proofs.«103712_j9801115369511_2_alg».proof.Proof.Gen.ReferenceIdeal
import proofs.«103712_j9801115369511_2_alg».proof.Proof.Gen.KernelIdeal.Value
import proofs.«103712_j9801115369511_2_alg».proof.Proof.Gen.ReferenceIdeal.Run
import proofs.«103712_j9801115369511_2_alg».proof.Proof.Gen.ReferenceIdeal.Read
import proofs.«103712_j9801115369511_2_alg».proof.Proof.Gen.Pre_finite_inputs
import proofs.«103712_j9801115369511_2_alg».proof.Proof.RefLinear
import proofs.«103712_j9801115369511_2_alg».proof.Proof.SameDifference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At exact values both programs end with `d · wᵀ + b` of the same difference rows, weights and bias. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, _, a2, a3, a4, a5⟩ := hagree c
  rw [Cert.ReferenceIdeal.Read.val_main_v27_eq, Cert.ReferenceIdeal.RefValue.result_eq, a0, a2, a3, a4, a5,
    ← Cert.SameDifference.diffRows_eq]
  exact (Cert.KernelIdeal.Found.result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
